-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S1000x128 : Shape := ⟨2, ![1000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1000x1 : Shape := ⟨2, ![1000, 1]⟩
abbrev S50000x64 : Shape := ⟨2, ![50000, 64]⟩
abbrev S1000x64 : Shape := ⟨2, ![1000, 64]⟩
abbrev S800000x64 : Shape := ⟨2, ![800000, 64]⟩
abbrev S1x64 : Shape := ⟨2, ![1, 64]⟩

abbrev nBuf : Space → Nat
  | .hbm => 122
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S800000x1, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S1x128, .f32⟩
  | .hbm, ⟨63, _⟩ => ⟨S50000x128, .f32⟩
  | .hbm, ⟨64, _⟩ => ⟨S1x800000, .i32⟩
  | .hbm, ⟨65, _⟩ => ⟨S800000, .i32⟩
  | .hbm, ⟨66, _⟩ => ⟨S1x800000, .i32⟩
  | .hbm, ⟨67, _⟩ => ⟨S800000, .i32⟩
  | .hbm, ⟨68, _⟩ => ⟨S50000x64, .f32⟩
  | .hbm, ⟨69, _⟩ => ⟨S_, .f32⟩
  | .hbm, ⟨70, _⟩ => ⟨S800000, .f32⟩
  | .hbm, ⟨71, _⟩ => ⟨S_, .f32⟩
  | .hbm, ⟨72, _⟩ => ⟨S50000, .f32⟩
  | .hbm, ⟨73, _⟩ => ⟨S800000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000, .f32⟩
  | .hbm, ⟨99, _⟩ => ⟨S800000, .f32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000x64, .f32⟩
  | .hbm, ⟨109, _⟩ => ⟨S800000x1, .f32⟩
  | .hbm, ⟨110, _⟩ => ⟨S800000x64, .f32⟩
  | .hbm, ⟨111, _⟩ => ⟨S800000x64, .f32⟩
  | .hbm, ⟨112, _⟩ => ⟨S_, .f32⟩
  | .hbm, ⟨113, _⟩ => ⟨S50000x64, .f32⟩
  | .hbm, ⟨114, _⟩ => ⟨S800000x1, .i32⟩
  | .hbm, ⟨115, _⟩ => ⟨S50000x64, .f32⟩
  | .hbm, ⟨116, _⟩ => ⟨S_, .f32⟩
  | .hbm, ⟨117, _⟩ => ⟨S50000, .f32⟩
  | .hbm, ⟨118, _⟩ => ⟨S50000, .f32⟩
  | .hbm, ⟨119, _⟩ => ⟨S50000x1, .f32⟩
  | .hbm, ⟨120, _⟩ => ⟨S1x64, .f32⟩
  | .hbm, ⟨121, _⟩ => ⟨S50000x64, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x1, .f32⟩
  | .local _ .vmem, ⟨10, _⟩ => ⟨S1000x1, .f32⟩
  | .local _ .vmem, ⟨11, _⟩ => ⟨S1x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S128x64, .f32⟩
  | .local _ .vmem, ⟨17, _⟩ => ⟨S1000x64, .f32⟩
  | .local _ .vmem, ⟨18, _⟩ => ⟨S1000x64, .f32⟩
  | .local _ .vmem, ⟨19, _⟩ => ⟨S1000x64, .f32⟩
  | .local _ .vmem, ⟨20, _⟩ => ⟨S1000x64, .f32⟩
  | .local _ .vmem, ⟨21, _⟩ => ⟨S1000x64, .f32⟩
  | .local _ .vmem, ⟨22, _⟩ => ⟨S1000x64, .f32⟩
  | .local _ .vmem, ⟨23, _⟩ => ⟨S1000x1, .f32⟩
  | .local _ .vmem, ⟨24, _⟩ => ⟨S1000x1, .f32⟩
  | .local _ .vmem, ⟨25, _⟩ => ⟨S1x64, .f32⟩
  | .local _ .vmem, ⟨26, _⟩ => ⟨S1000x64, .f32⟩
  | .local _ .vmem, ⟨27, _⟩ => ⟨S1000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_v58 : Ref sig .tc := ⟨.hbm, 80, rfl⟩
abbrev main_c_14 : Ref sig .tc := ⟨.hbm, 81, rfl⟩
abbrev main_v59 : Ref sig .tc := ⟨.hbm, 82, rfl⟩
abbrev main_v60 : Ref sig .tc := ⟨.hbm, 83, rfl⟩
abbrev main_c_15 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_16 : Ref sig .tc := ⟨.hbm, 90, rfl⟩
abbrev main_v66 : Ref sig .tc := ⟨.hbm, 91, rfl⟩
abbrev main_v67 : Ref sig .tc := ⟨.hbm, 92, rfl⟩
abbrev main_c_17 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_18 : Ref sig .tc := ⟨.hbm, 100, rfl⟩
abbrev main_v74 : Ref sig .tc := ⟨.hbm, 101, rfl⟩
abbrev main_v75 : Ref sig .tc := ⟨.hbm, 102, rfl⟩
abbrev main_c_19 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_20 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_21 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  shapeCasts_S128_S1x128 : S128.ShapeCasts S1x128
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x64_S128x64_0_0 : ∀ a, (![0, 0] : Fin 2 → Nat) a + S128x64.size a ≤ S128x64.size a
  h_S128x64 : 0 < S128x64.numel
  inb_S1000x64_S1000x64_0_0 : ∀ a, (![0, 0] : Fin 2 → Nat) a + S1000x64.size a ≤ S1000x64.size a
  h_S1000x64 : 0 < S1000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S1000x64_S1000x64 : S1000x64.ShapeCasts S1000x64
  broadcasts_S1000x1_S1000x64 : S1000x1.Broadcasts S1000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  dot_S1000x128_S128x128_S1000x128_1_0_0_1_n_n_wf : DotDims.WF S1000x128 S128x128 S1000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x64_S1000x64_1_0_0_1_n_n_wf : DotDims.WF S1000x128 S128x64 S1000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S50000x1.size a
  hwx1_2 : ∀ i : grid1.Coords, EltTy.bits .f32 = 32 ∨ (Rect.block (s := S50000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S50000x128.size a
  hwx1_4 : ∀ i : grid1.Coords, EltTy.bits .f32 = 32 ∨ (Rect.block (s := S50000x128) S1000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x64.size a ≤ S50000x64.size a
  hwx2_2 : ∀ i : grid2.Coords, EltTy.bits .f32 = 32 ∨ (Rect.block (s := S50000x64) S1000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S50000x64.size a
  hwx3_0 : ∀ i : grid3.Coords, EltTy.bits .f32 = 32 ∨ (Rect.block (s := S50000x64) S1000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x64.size a ≤ S50000x64.size a
  hwx3_1 : ∀ i : grid3.Coords, EltTy.bits .f32 = 32 ∨ (Rect.block (s := S50000x64) S1000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x1.size a ≤ S50000x1.size a
  hwx3_2 : ∀ i : grid3.Coords, EltTy.bits .f32 = 32 ∨ (Rect.block (s := S50000x1) S1000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x64.size a ≤ S50000x64.size a
  hwx3_4 : ∀ i : grid3.Coords, EltTy.bits .f32 = 32 ∨ (Rect.block (s := S50000x64) S1000x64.size (cc3_transform_4 i) (hinb3_4 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v86) S1000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S1000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v89) S1000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v90) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v91) S1000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 136
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000x128, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S800000x1, .f32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S_, .f32⟩
  | 59 => ⟨S50000, .f32⟩
  | 60 => ⟨S50000, .f32⟩
  | 61 => ⟨S50000x1, .f32⟩
  | 62 => ⟨S50000x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S1x800000, .i32⟩
  | 72 => ⟨S800000, .i32⟩
  | 73 => ⟨S1x800000, .i32⟩
  | 74 => ⟨S800000, .i32⟩
  | 75 => ⟨S50000x64, .f32⟩
  | 76 => ⟨S_, .f32⟩
  | 77 => ⟨S800000, .f32⟩
  | 78 => ⟨S_, .f32⟩
  | 79 => ⟨S50000, .f32⟩
  | 80 => ⟨S800000x1, .i32⟩
  | 81 => ⟨S50000, .f32⟩
  | 82 => ⟨S_, .f32⟩
  | 83 => ⟨S50000, .f32⟩
  | 84 => ⟨S50000, .f32⟩
  | 85 => ⟨S_, .f32⟩
  | 86 => ⟨S50000, .f32⟩
  | 87 => ⟨S50000, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000, .f32⟩
  | 106 => ⟨S800000, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x64, .f32⟩
  | 116 => ⟨S800000x1, .f32⟩
  | 117 => ⟨S800000x64, .f32⟩
  | 118 => ⟨S800000x64, .f32⟩
  | 119 => ⟨S_, .f32⟩
  | 120 => ⟨S50000x64, .f32⟩
  | 121 => ⟨S800000x1, .i32⟩
  | 122 => ⟨S50000x64, .f32⟩
  | 123 => ⟨S_, .f32⟩
  | 124 => ⟨S50000, .f32⟩
  | 125 => ⟨S50000, .f32⟩
  | 126 => ⟨S50000x1, .f32⟩
  | 127 => ⟨S50000x64, .f32⟩
  | _ => ⟨S50000x128, .f32⟩

abbrev hbmTy0_1 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S_, .f32⟩
  | 6 => ⟨S50000x64, .f32⟩
  | 7 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_cst : Ref sig .tc := ⟨.hbm, 68, rfl⟩
abbrev main_call0_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_16 : Ref sig .tc := ⟨.hbm, 97, rfl⟩
abbrev main_v71 : Ref sig .tc := ⟨.hbm, 98, rfl⟩
abbrev main_v72 : Ref sig .tc := ⟨.hbm, 99, rfl⟩
abbrev main_c_17 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_18 : Ref sig .tc := ⟨.hbm, 107, rfl⟩
abbrev main_v79 : Ref sig .tc := ⟨.hbm, 108, rfl⟩
abbrev main_v80 : Ref sig .tc := ⟨.hbm, 109, rfl⟩
abbrev main_c_19 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_20 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_21 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_call1_cst : Ref sig .tc := ⟨.hbm, 133, rfl⟩
abbrev main_call1_v0 : Ref sig .tc := ⟨.hbm, 134, rfl⟩
abbrev main_v101 : Ref sig .tc := ⟨.hbm, 135, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.ResultRun.lean ====
/-
  The idealized kernel's run with its result named.

  The program is four kernel regions among four stretches of host operations. Run in order from the launch memory,
  each stretch and each region maps the contents of the TensorCore's buffers to new contents; the contents after the
  last region are the fold of these eight maps over the launch memory. Every weakly fair execution terminates
  with every unscoped buffer at that fold, so in particular the result buffer holds the fold's value there and the six
  argument buffers hold what they were launched with (no stretch and no region writes an argument).
-/
import proofs.«139366_j7017976562000_1_alg».proof.Proof.Gen.KernelIdeal.Frame

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, without a fault, with the result buffer at the contents
    the last region leaves there and the argument buffers as launched. -/
theorem run_result : θ_run defs (onTc (τ := τ) (main (F := F))) ⟨m, fun _ => 0, ρ⟩ (fun r => ∀ c : Dev nD,
      r.2.mem ((c.tc : Thread nD τ).loc main_v91) = W8 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v91 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Gcn

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.Linear128.lean ====
/-
  The first layer's linear transform, block by block.

  The region multiplies a block of 1000 consecutive rows of the node features, X[1000 t .. 1000 t + 999, :], by the whole
  weight matrix W, into a zero accumulator, and writes the product back as the same 1000 rows of the result. The
  narrowing of both operands to a sixteen-bit format before the product is the identity on the extended reals. So
  entry (r, q) of the result array is the sum over k of X[r, k] * W[k, q], which is entry (r, q) of the whole
  product X W: row r lies in exactly the block of the point r / 1000, and an entry of a product of a row block
  depends on that row only.
-/
import proofs.«139366_j7017976562000_1_alg».proof.Proof.Gen.KernelIdeal.Frame
import proofs.«139366_j7017976562000_1_alg».proof.Proof.Gen.ReferenceIdeal.Read
import proofs.«139366_j7017976562000_1_alg».proof.Proof.LibMatmulRead
import Idealize.ShloMosaic.Lib.Pipeline.Value
import Idealize.ShloMosaic.Lib.ValueIdx
import Idealize.ShloMosaic.PureOps.Ideal.Laws

set_option maxRecDepth 16384

noncomputable section

namespace Cert.KernelIdeal.Gcn

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The zero offsets of a whole-block access. -/
theorem zeroOffsets : (![0, 0] : Fin 2 → Nat) = fun _ => 0 := funext fun a => by fin_cases a <;> rfl

/-- Row `j 0` of a row block with column `k`: the left factor of the entry at `j`. -/
abbrev rowAt128 (j : S1000x128.Idx) (k : Fin 128) : S1000x128.Idx := fun a => match a with
  | ⟨0, _⟩ => ⟨(j 0).val, (j 0).isLt⟩
  | ⟨1, _⟩ => ⟨k.val, k.isLt⟩
/-- Row `k` of the weights with column `j 1`: the right factor of the entry at `j`. -/
abbrev colAt128 (j : S1000x128.Idx) (k : Fin 128) : S128x128.Idx := fun a => match a with
  | ⟨0, _⟩ => ⟨k.val, k.isLt⟩
  | ⟨1, _⟩ => ⟨(j 1).val, (j 1).isLt⟩

/-- An entry of the product of a row block with the weights is the sum over the contracted axis of the products of
    the entry's row with the entry's column. -/
theorem linear128_block_apply (X : Vec Ideal S1000x128 .f32) (W : Vec Ideal S128x128 .f32) (j : S1000x128.Idx) :
    k0_pay1 X W j = ∑ k : Fin 128, X (rowAt128 j k) * W (colAt128 j k) := by
  obtain ⟨p, q, rfl⟩ : ∃ (p : Fin 1000) (q : Fin 128), j = ix2 p q := ⟨j 0, j 1, eq_ix2 j⟩
  unfold k0_pay1
  simp only [matmul]
  refine (MatmulRead.matmul_zero_ix2 (D := dot_S1000x128_S128x128_S1000x128_1_0_0_1_n_n) ⟨rfl, rfl, rfl, rfl, rfl, rfl⟩ rfl rfl
    none _ _ p q).trans ?_
  refine Finset.sum_congr rfl fun k _ => ?_
  have el : (ix2 p k : S1000x128.Idx) = rowAt128 (ix2 p q) k := funext fun a => Fin.ext (by
    match a with | ⟨0, _⟩ => rfl | ⟨1, _⟩ => rfl)
  have er : (ix2 k q : S128x128.Idx) = colAt128 (ix2 p q) k := funext fun a => Fin.ext (by
    match a with | ⟨0, _⟩ => rfl | ⟨1, _⟩ => rfl)
  rw [← el, ← er]
  rfl

/-- The printed index maps over the grid: the feature window and the result window move together down the rows, at
    column block 0; the weights' one block stays. -/
theorem linear128_index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An index of the result array lies in point `t`'s block iff each coordinate lies in the block's range on its axis. -/
theorem linear128_mem_block (t : Fin cfg0.N) (i : S50000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v4).slice (win0_2.rect t)).set ↔ _
  rw [View.set_slice_whole, Rect.mem_set_unit]
  exact Iff.rfl

/-- Every row of the result lies in the block of the point that is the row's quotient by 1000. -/
theorem linear128_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 50 := N_0
  have ht : (i 0).val / 1000 < cfg0.N := by show (i 0).val / 1000 < grid0.N; omega
  refine ⟨⟨(i 0).val / 1000, ht⟩, flush0_2 _, ?_⟩
  rw [linear128_mem_block]
  obtain ⟨-, -, -, -, e4, e5⟩ := linear128_index_facts ⟨(i 0).val / 1000, ht⟩
  intro a
  match a with
  | ⟨0, _⟩ =>
    show win0_2.index ⟨(i 0).val / 1000, ht⟩ (0 : Fin 2) * 1000 ≤ (i 0).val ∧ (i 0).val < win0_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win0_2.index ⟨(i 0).val / 1000, ht⟩ (1 : Fin 2) * 128 ≤ (i 1).val ∧ (i 1).val < win0_2.index ⟨(i 0).val / 1000, ht⟩ (1 : Fin 2) * 128 + 128
    rw [e5]; omega

section Array

variable (V : (c : Dev nD) → (b : Ref sig .tc) → Buf (Elt Ideal) ((c : Thread nD τ).loc b)) (c : Dev nD)
variable (x0 : (⟨S50000x128, .f32⟩ : BufTy).Contents (Elt Ideal)) (x2 : (⟨S128x128, .f32⟩ : BufTy).Contents (Elt Ideal))

/-- What point `t` writes back is block `t` of the whole product of the features with the weights. -/
theorem linear128_flushed (h0 : V c main_arg0 = x0) (h2 : V c main_arg2 = x2) (t : Fin cfg0.N) :
    (dat0 V c).flushed 2 t = ((cfg0.win 2).blk t).view.read (Elt Ideal) (Cert.ReferenceIdeal.Read.val_main_v4 x0 x2) := by
  show (cfg0.win 2).cut (grid0.coords t) ((dat0 V c).after 2 t) = _
  rw [after0_2]
  unfold out0_2
  rw [View.canon_unit_zero zeroOffsets]
  simp only [View.ld_unit_zero (S := S1000x128) zeroOffsets, View.ld_unit_zero (S := S128x128) zeroOffsets]
  obtain ⟨e0, e1, e2, e3, e4, e5⟩ := linear128_index_facts t
  funext j
  show k0_pay1 (iblk0 V c 0 t) (iblk0 V c 1 t) j = Cert.ReferenceIdeal.Read.val_main_v4 x0 x2 (((cfg0.win 2).blk t).view.emb j)
  refine (linear128_block_apply (iblk0 V c 0 t) (iblk0 V c 1 t) j).trans ?_
  rw [Cert.ReferenceIdeal.Read.val_main_v4_apply]
  refine Finset.sum_congr rfl fun k _ => ?_
  have hl : iblk0 V c 0 t (rowAt128 j k) = x0 (Cert.ReferenceIdeal.Read.lidx_main_v4 (((cfg0.win 2).blk t).view.emb j) k) := by
    show V c main_arg0 (((cfg0.win 0).blk t).view.emb (rowAt128 j k)) = _
    rw [h0]
    refine congrArg x0 (funext fun a => Fin.ext ?_)
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 128 + 1 * k.val = k.val; omega
  have hr : iblk0 V c 1 t (colAt128 j k) = x2 (Cert.ReferenceIdeal.Read.ridx_main_v4 (((cfg0.win 2).blk t).view.emb j) k) := by
    show V c main_arg2 (((cfg0.win 1).blk t).view.emb (colAt128 j k)) = _
    rw [h2]
    refine congrArg x2 (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hl, hr]

/-- The array the region leaves is the whole product: the reference's first `dot_general`. -/
theorem linear128_array (h0 : V c main_arg0 = x0) (h2 : V c main_arg2 = x2) :
    (dat0 V c).arrAt 2 cfg0.N = Cert.ReferenceIdeal.Read.val_main_v4 x0 x2 :=
  (dat0 V c).arrAt_eq_of_cover 2 _ (fun t _ => linear128_flushed V c x0 x2 h0 h2 t) linear128_cover

end Array

end Cert.KernelIdeal.Gcn

end
-- ==== Proof.Linear64.lean ====
/-
  The second layer's linear transform, block by block.

  The region multiplies a block of 1000 consecutive rows of the first layer's output, H[1000 t .. 1000 t + 999, :],
  by the whole second weight matrix (128 by 64), into a zero accumulator, and writes the product back as the same 1000
  rows of the result. Recasting a block to its own shape and narrowing both operands to a sixteen-bit format are the
  identity on the extended reals. So entry (r, q) of the result array is the sum over k of H[r, k] * W[k, q], entry
  (r, q) of the whole product H W: row r lies in exactly the block of the point r / 1000.
-/
import proofs.«139366_j7017976562000_1_alg».proof.Proof.Gen.KernelIdeal.Frame
import proofs.«139366_j7017976562000_1_alg».proof.Proof.Gen.ReferenceIdeal.Read
import proofs.«139366_j7017976562000_1_alg».proof.Proof.LibMatmulRead
import proofs.«139366_j7017976562000_1_alg».proof.Proof.Linear128
import Idealize.ShloMosaic.Lib.Pipeline.Value
import Idealize.ShloMosaic.Lib.ValueIdx
import Idealize.ShloMosaic.PureOps.Ideal.Laws

set_option maxRecDepth 16384

noncomputable section

namespace Cert.KernelIdeal.Gcn

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- Row `j 0` of a row block with column `k`: the left factor of the entry at `j`. -/
abbrev rowAt64 (j : S1000x64.Idx) (k : Fin 128) : S1000x128.Idx := fun a => match a with
  | ⟨0, _⟩ => ⟨(j 0).val, (j 0).isLt⟩
  | ⟨1, _⟩ => ⟨k.val, k.isLt⟩
/-- Row `k` of the weights with column `j 1`: the right factor of the entry at `j`. -/
abbrev colAt64 (j : S1000x64.Idx) (k : Fin 128) : S128x64.Idx := fun a => match a with
  | ⟨0, _⟩ => ⟨k.val, k.isLt⟩
  | ⟨1, _⟩ => ⟨(j 1).val, (j 1).isLt⟩

/-- An entry of the product of a row block with the weights is the sum over the contracted axis of the products of
    the entry's row with the entry's column. -/
theorem linear64_block_apply (X : Vec Ideal S1000x128 .f32) (W : Vec Ideal S128x64 .f32) (j : S1000x64.Idx) :
    k2_pay1 X W j = ∑ k : Fin 128, X (rowAt64 j k) * W (colAt64 j k) := by
  obtain ⟨p, q, rfl⟩ : ∃ (p : Fin 1000) (q : Fin 64), j = ix2 p q := ⟨j 0, j 1, eq_ix2 j⟩
  unfold k2_pay1
  simp only [matmul, shapeCast_self]
  refine (MatmulRead.matmul_zero_ix2 (D := dot_S1000x128_S128x64_S1000x64_1_0_0_1_n_n) ⟨rfl, rfl, rfl, rfl, rfl, rfl⟩ rfl rfl
    none _ _ p q).trans ?_
  refine Finset.sum_congr rfl fun k _ => ?_
  have el : (ix2 p k : S1000x128.Idx) = rowAt64 (ix2 p q) k := funext fun a => Fin.ext (by
    match a with | ⟨0, _⟩ => rfl | ⟨1, _⟩ => rfl)
  have er : (ix2 k q : S128x64.Idx) = colAt64 (ix2 p q) k := funext fun a => Fin.ext (by
    match a with | ⟨0, _⟩ => rfl | ⟨1, _⟩ => rfl)
  rw [← el, ← er]
  rfl

/-- The printed index maps over the grid: the input window and the result window move together down the rows, at
    column block 0; the weights' one block stays. -/
theorem linear64_index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An index of the result array lies in point `t`'s block iff each coordinate lies in the block's range on its axis. -/
theorem linear64_mem_block (t : Fin cfg2.N) (i : S50000x64.Idx) :
    i ∈ ((cfg2.win 2).blk t).view.set ↔ ∀ a : Fin 2, win2_2.index t a * S1000x64.size a ≤ (i a).val ∧ (i a).val < win2_2.index t a * S1000x64.size a + S1000x64.size a := by
  show i ∈ ((View.whole main_v50).slice (win2_2.rect t)).set ↔ _
  rw [View.set_slice_whole, Rect.mem_set_unit]
  exact Iff.rfl

/-- Every row of the result lies in the block of the point that is the row's quotient by 1000. -/
theorem linear64_cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : grid2.N = 50 := N_2
  have ht : (i 0).val / 1000 < cfg2.N := by show (i 0).val / 1000 < grid2.N; omega
  refine ⟨⟨(i 0).val / 1000, ht⟩, flush2_2 _, ?_⟩
  rw [linear64_mem_block]
  obtain ⟨-, -, -, -, e4, e5⟩ := linear64_index_facts ⟨(i 0).val / 1000, ht⟩
  intro a
  match a with
  | ⟨0, _⟩ =>
    show win2_2.index ⟨(i 0).val / 1000, ht⟩ (0 : Fin 2) * 1000 ≤ (i 0).val ∧ (i 0).val < win2_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win2_2.index ⟨(i 0).val / 1000, ht⟩ (1 : Fin 2) * 64 ≤ (i 1).val ∧ (i 1).val < win2_2.index ⟨(i 0).val / 1000, ht⟩ (1 : Fin 2) * 64 + 64
    rw [e5]; omega

section Array

variable (V : (c : Dev nD) → (b : Ref sig .tc) → Buf (Elt Ideal) ((c : Thread nD τ).loc b)) (c : Dev nD)

/-- What point `t` writes back is block `t` of any array `G` whose entry (r, q) is the sum over k of `Hm (r, k) * x4 (k, q)`,
    when the region finds `Hm` and `x4` in its two input arrays: an entry of the product of a row block depends on its own
    row only, and that row of the block is row 1000 t + (the row inside the block) of `Hm`. -/
theorem linear64_flushed (Hm : S50000x128.Idx → EReal) (x4 : S128x64.Idx → EReal) (G : S50000x64.Idx → EReal)
    (hG : ∀ i : S50000x64.Idx, G i = ∑ k : Fin 128, Hm (Cert.ReferenceIdeal.Read.lidx_main_v55 i k) * x4 (Cert.ReferenceIdeal.Read.ridx_main_v55 i k))
    (hH : (V c main_v45 : S50000x128.Idx → EReal) = Hm) (h4 : (V c main_arg4 : S128x64.Idx → EReal) = x4)
    (t : Fin cfg2.N) :
    (dat2 V c).flushed 2 t = ((cfg2.win 2).blk t).view.read (Elt Ideal) G := by
  show (cfg2.win 2).cut (grid2.coords t) ((dat2 V c).after 2 t) = _
  rw [after2_2]
  unfold out2_2
  rw [View.canon_unit_zero zeroOffsets]
  simp only [View.ld_unit_zero (S := S1000x128) zeroOffsets, View.ld_unit_zero (S := S128x64) zeroOffsets]
  obtain ⟨e0, e1, e2, e3, e4, e5⟩ := linear64_index_facts t
  funext j
  show k2_pay1 (iblk2 V c 0 t) (iblk2 V c 1 t) j = G (((cfg2.win 2).blk t).view.emb j)
  refine (linear64_block_apply (iblk2 V c 0 t) (iblk2 V c 1 t) j).trans ?_
  rw [hG]
  refine Finset.sum_congr rfl fun k _ => ?_
  have hl : iblk2 V c 0 t (rowAt64 j k) = Hm (Cert.ReferenceIdeal.Read.lidx_main_v55 (((cfg2.win 2).blk t).view.emb j) k) := by
    show V c main_v45 (((cfg2.win 0).blk t).view.emb (rowAt64 j k)) = _
    rw [hH]
    refine congrArg Hm (funext fun a => Fin.ext ?_)
    match a with
    | ⟨0, _⟩ => show win2_0.index t (0 : Fin 2) * 1000 + 1 * (j 0).val = win2_2.index t (0 : Fin 2) * 1000 + 1 * (j 0).val; omega
    | ⟨1, _⟩ => show win2_0.index t (1 : Fin 2) * 128 + 1 * k.val = k.val; omega
  have hr : iblk2 V c 1 t (colAt64 j k) = x4 (Cert.ReferenceIdeal.Read.ridx_main_v55 (((cfg2.win 2).blk t).view.emb j) k) := by
    show V c main_arg4 (((cfg2.win 1).blk t).view.emb (colAt64 j k)) = _
    rw [h4]
    refine congrArg x4 (funext fun a => Fin.ext ?_)
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  rw [hl, hr]

/-- The array the region leaves is that `G`. -/
theorem linear64_array_of (Hm : S50000x128.Idx → EReal) (x4 : S128x64.Idx → EReal) (G : S50000x64.Idx → EReal)
    (hG : ∀ i : S50000x64.Idx, G i = ∑ k : Fin 128, Hm (Cert.ReferenceIdeal.Read.lidx_main_v55 i k) * x4 (Cert.ReferenceIdeal.Read.ridx_main_v55 i k))
    (hH : (V c main_v45 : S50000x128.Idx → EReal) = Hm) (h4 : (V c main_arg4 : S128x64.Idx → EReal) = x4) :
    (dat2 V c).arrAt 2 cfg2.N = G :=
  (dat2 V c).arrAt_eq_of_cover 2 G (fun t _ => linear64_flushed V c Hm x4 G hG hH h4 t) linear64_cover

variable (x0 : (⟨S50000x128, .f32⟩ : BufTy).Contents (Elt Ideal)) (x1 : (⟨S2x800000, .i32⟩ : BufTy).Contents (Elt Ideal))
variable (x2 : (⟨S128x128, .f32⟩ : BufTy).Contents (Elt Ideal)) (x3 : (⟨S128, .f32⟩ : BufTy).Contents (Elt Ideal))
variable (x4 : (⟨S128x64, .f32⟩ : BufTy).Contents (Elt Ideal))

/-- With the first layer's output in the input array, the array the region leaves is the whole product: the reference's
    second `dot_general`. -/
theorem linear64_array (hH : V c main_v45 = Cert.ReferenceIdeal.Read.val_main_v50 x0 x1 x2 x3) (h4 : V c main_arg4 = x4) :
    (dat2 V c).arrAt 2 cfg2.N = Cert.ReferenceIdeal.Read.val_main_v55 x0 x1 x2 x3 x4 :=
  linear64_array_of V c (Cert.ReferenceIdeal.Read.val_main_v50 x0 x1 x2 x3) x4 (Cert.ReferenceIdeal.Read.val_main_v55 x0 x1 x2 x3 x4)
    (fun i => Cert.ReferenceIdeal.Read.val_main_v55_apply x0 x1 x2 x3 x4 i) hH h4

end Array

end Cert.KernelIdeal.Gcn

end
-- ==== Proof.SelfLoopRelu128.lean ====
/- The pointwise region of the first graph-convolution layer (width 128) leaves the reference's
   layer-1 stage, given that it finds the reference's stages in its four input windows.

   The mathematics. The region runs over 50 grid points; point t sees block t of each row-blocked array — rows
   1000 t … 1000 t + 999, all lanes — of the edge aggregate A, of the linear transform H and of the one-column array D of
   reciprocal degrees, and the whole one-row bias B. Its body stores, at row p and lane q of the output block,
       max((A[p,q] + H[p,q] * D[p,0]) + B[0,q], 0),
   so the stored element depends on the element at the same place of A and H, on row p of the column D (any lane reads
   column 0) and on lane q of the row B (any row reads row 0). Element (p, q) of block t of a row-blocked array is element
   (1000 t + p, q) of the array (block index times block extent plus the coordinate inside the block; the lane axis has one
   block). Hence point t writes back block t of the array whose element (r, q) is
       max((A[r,q] + H[r,q] * D[r,0]) + B[0,q], 0),
   every point writes back, and row r lies in the block of point r / 1000, so the 50 blocks cover the 50000 rows and the
   output array is that array. The reference computes the same element: its 1/deg is broadcast to a column and then over
   the lanes (reading row r), its bias is broadcast to a row and then over the rows (reading entry q), and its relu is the
   maximum with a broadcast zero. The bias row the region finds is the bias vector reshaped to [1, 128], whose element
   (0, q) is the vector's entry q.

   The per-point statements are proved for ARBITRARY arrays A, H, D, B and an arbitrary array G that has the element formula;
   only the last theorem puts the reference's stages in their places. -/
import proofs.«139366_j7017976562000_1_alg».proof.Proof.Gen.KernelIdeal.Frame
import proofs.«139366_j7017976562000_1_alg».proof.Proof.Gen.ReferenceIdeal.Read
import Idealize.ShloMosaic.Lib.Pipeline.Value
import Idealize.ShloMosaic.Lib.ValueIdx
import Idealize.ShloMosaic.Lib.ValueLayout

set_option maxRecDepth 16384

noncomputable section

namespace Cert.KernelIdeal.Gcn

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The two zero offsets of a whole-buffer access, as the constant function. -/
theorem hz128 : (![0, 0] : Fin 2 → Nat) = fun _ => 0 := funext fun a => by fin_cases a <;> rfl

/-- The column of reciprocal degrees spread over the 128 lanes reads, at (p, q), the column's row p. -/
theorem colBroadcast128_apply (D : Vec Ideal S1000x1 .f32) (p : Fin 1000) (q : Fin 128) :
    broadcastTo S1000x128 D broadcasts_S1000x1_S1000x128 (ix2 p q) = D (ix2 p 0) :=
  broadcastTo_apply D broadcasts_S1000x1_S1000x128 (ix2 p q) (ix2 p 0) (fun a => match a with
    | ⟨0, _⟩ => by show p.val = if (1000 : Nat) = 1 then 0 else p.val; rw [if_neg (by decide)]
    | ⟨1, _⟩ => by show 0 = if (1 : Nat) = 1 then 0 else q.val; rw [if_pos rfl])

/-- The bias row spread over the 1000 rows reads, at (p, q), the row's lane q. -/
theorem rowBroadcast128_apply (B : Vec Ideal S1x128 .f32) (p : Fin 1000) (q : Fin 128) :
    broadcastTo S1000x128 B broadcasts_S1x128_S1000x128 (ix2 p q) = B (ix2 0 q) :=
  broadcastTo_apply B broadcasts_S1x128_S1000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- THE BODY AT AN ELEMENT. From a block A of the aggregate, the matching block H of the linear transform, the block D of
    the reciprocal-degree column and the bias row B, the body stores at row p, lane q
    max((A[p,q] + H[p,q] * D[p,0]) + B[0,q], 0): the element depends on its own position in A and H, on row p of the
    column and on lane q of the bias row, and on nothing else. -/
theorem pay128_apply (A H : Vec Ideal S1000x128 .f32) (D : Vec Ideal S1000x1 .f32) (B : Vec Ideal S1x128 .f32)
    (p : Fin 1000) (q : Fin 128) :
    k1_pay1 (F := Ideal) A H D B (ix2 p q)
      = FloatOps.maximumf (FloatOps.addf (FloatOps.addf (A (ix2 p q)) (FloatOps.mulf (H (ix2 p q)) (D (ix2 p 0)))) (B (ix2 0 q)))
          (Scalar.ofBits (F := Ideal) .f32 0x00000000#32) := by
  unfold Gen.k1_pay1
  rw [shapeCast_self A, shapeCast_self H, shapeCast_self D, shapeCast_self B]
  show FloatOps.maximumf (F := Ideal) (FloatOps.addf (F := Ideal) (FloatOps.addf (F := Ideal) (A (ix2 p q)) (FloatOps.mulf (F := Ideal) (H (ix2 p q))
      (broadcastTo S1000x128 D broadcasts_S1000x1_S1000x128 (ix2 p q))))
      (broadcastTo S1000x128 B broadcasts_S1x128_S1000x128 (ix2 p q))) _ = _
  rw [colBroadcast128_apply, rowBroadcast128_apply]
  rfl

/-- The grid's 50 points in the printed index maps: at point t the three row-blocked inputs and the output are at
    block (t, 0) of their arrays, the bias row at its one block (0, 0). -/
theorem blockIndex128 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of block t is row 1000 t + p of the 50000-row array. -/
def row128 (t : Fin cfg1.N) (p : Fin 1000) : Fin 50000 :=
  ⟨t.val * 1000 + p.val, by have hN : cfg1.N = 50 := N_1; have := t.isLt; have := p.isLt; omega⟩

section Blocks
variable (V : (c : Dev nD) → (b : Ref sig .tc) → Buf (Elt Ideal) ((c : Thread nD τ).loc b)) (c : Dev nD)

/-- Element (p, q) of the aggregate's block t is element (1000 t + p, q) of the aggregate. -/
theorem aggBlock128_apply (t : Fin cfg1.N) (p : Fin 1000) (q : Fin 128) :
    (iblk1 V c 0 t : Vec Ideal S1000x128 .f32) (ix2 p q) = (V c main_v40 : S50000x128.Idx → Elt Ideal .f32) (ix2 (row128 t p) q) := by
  obtain ⟨e0, e1, -⟩ := blockIndex128 t
  have h : ((cfg1.win 0).blk t).view.emb (ix2 p q) = (ix2 (row128 t p) q : S50000x128.Idx) := by
    funext a; apply Fin.ext
    match a with
    | ⟨0, _⟩ => show win1_0.index t (0 : Fin 2) * 1000 + 1 * p.val = t.val * 1000 + p.val; omega
    | ⟨1, _⟩ => show win1_0.index t (1 : Fin 2) * 128 + 1 * q.val = q.val; omega
  show V c main_v40 (((cfg1.win 0).blk t).view.emb (ix2 p q)) = _
  rw [h]

/-- Element (p, q) of the linear transform's block t is element (1000 t + p, q) of the linear transform. -/
theorem selfBlock128_apply (t : Fin cfg1.N) (p : Fin 1000) (q : Fin 128) :
    (iblk1 V c 1 t : Vec Ideal S1000x128 .f32) (ix2 p q) = (V c main_v4 : S50000x128.Idx → Elt Ideal .f32) (ix2 (row128 t p) q) := by
  obtain ⟨-, -, e0, e1, -⟩ := blockIndex128 t
  have h : ((cfg1.win 1).blk t).view.emb (ix2 p q) = (ix2 (row128 t p) q : S50000x128.Idx) := by
    funext a; apply Fin.ext
    match a with
    | ⟨0, _⟩ => show win1_1.index t (0 : Fin 2) * 1000 + 1 * p.val = t.val * 1000 + p.val; omega
    | ⟨1, _⟩ => show win1_1.index t (1 : Fin 2) * 128 + 1 * q.val = q.val; omega
  show V c main_v4 (((cfg1.win 1).blk t).view.emb (ix2 p q)) = _
  rw [h]

/-- Row p of the reciprocal-degree column's block t is row 1000 t + p of the column. -/
theorem degBlock128_apply (t : Fin cfg1.N) (p : Fin 1000) :
    (iblk1 V c 2 t : Vec Ideal S1000x1 .f32) (ix2 p 0) = (V c main_v43 : S50000x1.Idx → Elt Ideal .f32) (ix2 (row128 t p) 0) := by
  obtain ⟨-, -, -, -, e0, e1, -⟩ := blockIndex128 t
  have h : ((cfg1.win 2).blk t).view.emb (ix2 p (0 : Fin 1)) = (ix2 (row128 t p) (0 : Fin 1) : S50000x1.Idx) := by
    funext a; apply Fin.ext
    match a with
    | ⟨0, _⟩ => show win1_2.index t (0 : Fin 2) * 1000 + 1 * p.val = t.val * 1000 + p.val; omega
    | ⟨1, _⟩ => show win1_2.index t (1 : Fin 2) * 1 + 1 * 0 = 0; omega
  show V c main_v43 (((cfg1.win 2).blk t).view.emb (ix2 p (0 : Fin 1))) = _
  rw [h]

/-- The bias row has one block, the row itself: lane q of it at any point is lane q of the row. -/
theorem biasBlock128_apply (t : Fin cfg1.N) (q : Fin 128) :
    (iblk1 V c 3 t : Vec Ideal S1x128 .f32) (ix2 0 q) = (V c main_v44 : S1x128.Idx → Elt Ideal .f32) (ix2 0 q) := by
  obtain ⟨-, -, -, -, -, -, e0, e1, -⟩ := blockIndex128 t
  have h : ((cfg1.win 3).blk t).view.emb (ix2 (0 : Fin 1) q) = (ix2 (0 : Fin 1) q : S1x128.Idx) := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  show V c main_v44 (((cfg1.win 3).blk t).view.emb (ix2 (0 : Fin 1) q)) = _
  rw [h]

/-- Element (p, q) of the output's block t sits at (1000 t + p, q) of the output array. -/
theorem outBlock128_emb (t : Fin cfg1.N) (p : Fin 1000) (q : Fin 128) :
    ((cfg1.win 4).blk t).view.emb (ix2 p q) = (ix2 (row128 t p) q : S50000x128.Idx) := by
  obtain ⟨-, -, -, -, -, -, -, -, e0, e1⟩ := blockIndex128 t
  funext a; apply Fin.ext
  match a with
  | ⟨0, _⟩ => show win1_4.index t (0 : Fin 2) * 1000 + 1 * p.val = t.val * 1000 + p.val; omega
  | ⟨1, _⟩ => show win1_4.index t (1 : Fin 2) * 128 + 1 * q.val = q.val; omega

end Blocks

/-- The bias vector viewed as a one-row matrix reads, at (0, q), the vector's entry q. -/
theorem biasRow128_apply (x3 : (⟨S128, .f32⟩ : BufTy).Contents (Elt Ideal)) (q : Fin 128) :
    shapeCast S1x128 x3 shapeCasts_S128_S1x128 (ix2 0 q) = x3 (ix1 q) :=
  (shapeCast_addUnit_apply ![128] x3 shapeCasts_S128_S1x128 (ix2 0 q)).trans
    (congrArg x3 (funext fun a => Fin.ext (by match a with | ⟨0, _⟩ => rfl)))

section Flushed
variable (V : (c : Dev nD) → (b : Ref sig .tc) → Buf (Elt Ideal) ((c : Thread nD τ).loc b)) (c : Dev nD)
variable (A H G : (⟨S50000x128, .f32⟩ : BufTy).Contents (Elt Ideal)) (D : (⟨S50000x1, .f32⟩ : BufTy).Contents (Elt Ideal))
    (B : (⟨S1x128, .f32⟩ : BufTy).Contents (Elt Ideal))

/-- WHAT POINT t WRITES BACK is block t — rows 1000 t … 1000 t + 999 — of any array G that is, element by element,
    max((A[r,q] + H[r,q] * D[r,0]) + B[0,q], 0) of the four arrays the region finds in its input windows: element (p, q) of the
    stored block is the body's value at the blocks' elements, which are the arrays' at row 1000 t + p. -/
theorem flushed128_of
    (hA : V c main_v40 = A) (hH : V c main_v4 = H) (hD : V c main_v43 = D) (hB : V c main_v44 = B)
    (hG : ∀ (r : Fin 50000) (q : Fin 128), G (ix2 r q)
      = FloatOps.maximumf (FloatOps.addf (FloatOps.addf (A (ix2 r q)) (FloatOps.mulf (H (ix2 r q)) (D (ix2 r 0)))) (B (ix2 0 q)))
          (Scalar.ofBits (F := Ideal) .f32 0x00000000#32))
    (t : Fin cfg1.N) :
    (dat1 V c).flushed 4 t = ((cfg1.win 4).blk t).view.read (Elt Ideal) G := by
  show (cfg1.win 4).cut (grid1.coords t) ((dat1 V c).after 4 t) = _
  rw [after1_4]
  unfold out1_4
  rw [View.canon_unit_zero hz128]
  simp only [View.ld_unit_zero (S := S1000x128) hz128, View.ld_unit_zero (S := S1000x1) hz128, View.ld_unit_zero (S := S1x128) hz128]
  funext j
  obtain ⟨p, q, rfl⟩ : ∃ (p : Fin 1000) (q : Fin 128), j = ix2 p q := ⟨j 0, j 1, eq_ix2 j⟩
  show k1_pay1 (F := Ideal) (iblk1 V c 0 t) (iblk1 V c 1 t) (iblk1 V c 2 t) (iblk1 V c 3 t) (ix2 p q)
    = G (((cfg1.win 4).blk t).view.emb (ix2 p q))
  rw [outBlock128_emb t p q, hG]
  refine (pay128_apply (iblk1 V c 0 t) (iblk1 V c 1 t) (iblk1 V c 2 t) (iblk1 V c 3 t) p q).trans ?_
  rw [aggBlock128_apply V c t p q, selfBlock128_apply V c t p q, degBlock128_apply V c t p, biasBlock128_apply V c t q,
    hA, hH, hD, hB]

end Flushed

/-- An index of the output array is in point t's block iff each coordinate is in the block's range on its axis. -/
theorem mem_outBlock128 (t : Fin cfg1.N) (i : S50000x128.Idx) :
    i ∈ ((cfg1.win 4).blk t).view.set ↔ ∀ a : Fin 2, win1_4.index t a * S1000x128.size a ≤ (i a).val
      ∧ (i a).val < win1_4.index t a * S1000x128.size a + S1000x128.size a := by
  show i ∈ ((View.whole main_v45).slice (win1_4.rect t)).set ↔ _
  rw [View.set_slice_whole, Rect.mem_set_unit]
  exact Iff.rfl

/-- THE BLOCKS COVER THE ARRAY: row r lies in the block of point r / 1000, and every point writes its block back. -/
theorem cover128 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 50 := N_1
  obtain ⟨t, ht⟩ : ∃ t : Fin cfg1.N, t.val = (i 0).val / 1000 := ⟨⟨(i 0).val / 1000, by omega⟩, rfl⟩
  obtain ⟨-, -, -, -, -, -, -, -, e0, e1⟩ := blockIndex128 t
  refine ⟨t, flush1_4 t, ?_⟩
  rw [mem_outBlock128]
  intro a
  match a with
  | ⟨0, _⟩ =>
    show win1_4.index t (0 : Fin 2) * 1000 ≤ (i 0).val ∧ (i 0).val < win1_4.index t (0 : Fin 2) * 1000 + 1000
    omega
  | ⟨1, _⟩ =>
    show win1_4.index t (1 : Fin 2) * 128 ≤ (i 1).val ∧ (i 1).val < win1_4.index t (1 : Fin 2) * 128 + 128
    omega

section Array
variable (V : (c : Dev nD) → (b : Ref sig .tc) → Buf (Elt Ideal) ((c : Thread nD τ).loc b)) (c : Dev nD)
variable (A H G : (⟨S50000x128, .f32⟩ : BufTy).Contents (Elt Ideal)) (D : (⟨S50000x1, .f32⟩ : BufTy).Contents (Elt Ideal))
    (B : (⟨S1x128, .f32⟩ : BufTy).Contents (Elt Ideal))

/-- THE ARRAY THE REGION LEAVES: every point writes back its block of G and the 50 blocks cover the 50000 rows, so the
    output array ends holding G. -/
theorem arrAt128_of
    (hA : V c main_v40 = A) (hH : V c main_v4 = H) (hD : V c main_v43 = D) (hB : V c main_v44 = B)
    (hG : ∀ (r : Fin 50000) (q : Fin 128), G (ix2 r q)
      = FloatOps.maximumf (FloatOps.addf (FloatOps.addf (A (ix2 r q)) (FloatOps.mulf (H (ix2 r q)) (D (ix2 r 0)))) (B (ix2 0 q)))
          (Scalar.ofBits (F := Ideal) .f32 0x00000000#32)) :
    (dat1 V c).arrAt 4 cfg1.N = G :=
  (dat1 V c).arrAt_eq_of_cover 4 G (fun t _ => flushed128_of V c A H G D B hA hH hD hB hG t) cover128

end Array

section Reference
variable (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))

/-- THE REFERENCE'S LAYER AT AN ELEMENT: relu of (aggregate + linear transform * (1/deg spread over the lanes)) + (bias spread
    over the rows), read at (r, q), is max((agg[r,q] + h[r,q] * invdeg[r,0]) + b[q], 0) — the same element of the aggregate
    and of the linear transform, row r of the reciprocal-degree column, entry q of the bias. -/
theorem reference128_apply (r : Fin 50000) (q : Fin 128) :
    Cert.ReferenceIdeal.Read.val_main_v50 x0 x1 x2 x3 (ix2 r q)
      = FloatOps.maximumf (FloatOps.addf (FloatOps.addf (Cert.ReferenceIdeal.Read.val_main_v40 x0 x1 x2 (ix2 r q))
            (FloatOps.mulf (Cert.ReferenceIdeal.Read.val_main_v4 x0 x2 (ix2 r q)) (Cert.ReferenceIdeal.Read.val_main_v43 x1 (ix2 r 0))))
          (shapeCast S1x128 x3 shapeCasts_S128_S1x128 (ix2 0 q)))
          (Scalar.ofBits (F := Ideal) .f32 0x00000000#32) := by
  have e44 : Cert.ReferenceIdeal.Read.idx_main_v44 (ix2 r q) = ix2 r 0 :=
    funext fun a => Fin.ext (by match a with | ⟨0, _⟩ => rfl | ⟨1, _⟩ => rfl)
  have e47 : Cert.ReferenceIdeal.Read.idx_main_v47 (Cert.ReferenceIdeal.Read.idx_main_v48 (ix2 r q)) = ix1 q :=
    funext fun a => Fin.ext (by match a with | ⟨0, _⟩ => rfl)
  rw [Cert.ReferenceIdeal.Read.val_main_v50_apply, Cert.ReferenceIdeal.Read.val_main_v49_apply,
    Cert.ReferenceIdeal.Read.val_main_v46_apply, Cert.ReferenceIdeal.Read.val_main_v45_apply,
    Cert.ReferenceIdeal.Read.val_main_v44_apply, Cert.ReferenceIdeal.Read.val_main_v48_apply,
    Cert.ReferenceIdeal.Read.val_main_v47_apply, Cert.ReferenceIdeal.Read.val_main_call0_v0_apply,
    Cert.ReferenceIdeal.Read.val_main_call0_cst_apply, e44, e47, biasRow128_apply]

end Reference

/-- LAYER 1's POINTWISE REGION IS THE REFERENCE'S LAYER 1: if the region finds the reference's aggregate, linear transform,
    reciprocal-degree column and bias row in its four input windows, the array it leaves is the reference's relu stage. -/
theorem selfLoopRelu128_array
    (V : (c : Dev nD) → (b : Ref sig .tc) → Buf (Elt Ideal) ((c : Thread nD τ).loc b)) (c : Dev nD)
    (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (hA : V c main_v40 = Cert.ReferenceIdeal.Read.val_main_v40 x0 x1 x2)
    (hH : V c main_v4 = Cert.ReferenceIdeal.Read.val_main_v4 x0 x2)
    (hD : V c main_v43 = Cert.ReferenceIdeal.Read.val_main_v43 x1)
    (hB : V c main_v44 = shapeCast S1x128 x3 shapeCasts_S128_S1x128) :
    (dat1 V c).arrAt 4 cfg1.N = Cert.ReferenceIdeal.Read.val_main_v50 x0 x1 x2 x3 :=
  arrAt128_of V c (Cert.ReferenceIdeal.Read.val_main_v40 x0 x1 x2) (Cert.ReferenceIdeal.Read.val_main_v4 x0 x2)
    (Cert.ReferenceIdeal.Read.val_main_v50 x0 x1 x2 x3) (Cert.ReferenceIdeal.Read.val_main_v43 x1)
    (shapeCast S1x128 x3 shapeCasts_S128_S1x128) hA hH hD hB (reference128_apply x0 x1 x2 x3)

end Cert.KernelIdeal.Gcn

end
-- ==== Proof.SelfLoopRelu64.lean ====
/- The pointwise region of the second graph-convolution layer (width 64) leaves the reference's
   layer-2 stage, given that it finds the reference's stages in its four input windows.

   The mathematics. The region runs over 50 grid points; point t sees block t of each row-blocked array — rows
   1000 t … 1000 t + 999, all lanes — of the edge aggregate A, of the linear transform H and of the one-column array D of
   reciprocal degrees, and the whole one-row bias B. Its body stores, at row p and lane q of the output block,
       max((A[p,q] + H[p,q] * D[p,0]) + B[0,q], 0),
   so the stored element depends on the element at the same place of A and H, on row p of the column D (any lane reads
   column 0) and on lane q of the row B (any row reads row 0). Element (p, q) of block t of a row-blocked array is element
   (1000 t + p, q) of the array (block index times block extent plus the coordinate inside the block; the lane axis has one
   block). Hence point t writes back block t of the array whose element (r, q) is
       max((A[r,q] + H[r,q] * D[r,0]) + B[0,q], 0),
   every point writes back, and row r lies in the block of point r / 1000, so the 50 blocks cover the 50000 rows and the
   output array is that array. The reference computes the same element: its 1/deg is broadcast to a column and then over
   the lanes (reading row r), its bias is broadcast to a row and then over the rows (reading entry q), and its relu is the
   maximum with a broadcast zero. The bias row the region finds is the bias vector reshaped to [1, 64], whose element
   (0, q) is the vector's entry q.

   The per-point statements are proved for ARBITRARY arrays A, H, D, B and an arbitrary array G that has the element formula;
   only the last theorem puts the reference's stages in their places. -/
import proofs.«139366_j7017976562000_1_alg».proof.Proof.Gen.KernelIdeal.Frame
import proofs.«139366_j7017976562000_1_alg».proof.Proof.Gen.ReferenceIdeal.Read
import Idealize.ShloMosaic.Lib.Pipeline.Value
import Idealize.ShloMosaic.Lib.ValueIdx
import Idealize.ShloMosaic.Lib.ValueLayout

set_option maxRecDepth 16384

noncomputable section

namespace Cert.KernelIdeal.Gcn

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The two zero offsets of a whole-buffer access, as the constant function. -/
theorem hz64 : (![0, 0] : Fin 2 → Nat) = fun _ => 0 := funext fun a => by fin_cases a <;> rfl

/-- The column of reciprocal degrees spread over the 64 lanes reads, at (p, q), the column's row p. -/
theorem colBroadcast64_apply (D : Vec Ideal S1000x1 .f32) (p : Fin 1000) (q : Fin 64) :
    broadcastTo S1000x64 D broadcasts_S1000x1_S1000x64 (ix2 p q) = D (ix2 p 0) :=
  broadcastTo_apply D broadcasts_S1000x1_S1000x64 (ix2 p q) (ix2 p 0) (fun a => match a with
    | ⟨0, _⟩ => by show p.val = if (1000 : Nat) = 1 then 0 else p.val; rw [if_neg (by decide)]
    | ⟨1, _⟩ => by show 0 = if (1 : Nat) = 1 then 0 else q.val; rw [if_pos rfl])

/-- The bias row spread over the 1000 rows reads, at (p, q), the row's lane q. -/
theorem rowBroadcast64_apply (B : Vec Ideal S1x64 .f32) (p : Fin 1000) (q : Fin 64) :
    broadcastTo S1000x64 B broadcasts_S1x64_S1000x64 (ix2 p q) = B (ix2 0 q) :=
  broadcastTo_apply B broadcasts_S1x64_S1000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-- THE BODY AT AN ELEMENT. From a block A of the aggregate, the matching block H of the linear transform, the block D of
    the reciprocal-degree column and the bias row B, the body stores at row p, lane q
    max((A[p,q] + H[p,q] * D[p,0]) + B[0,q], 0): the element depends on its own position in A and H, on row p of the
    column and on lane q of the bias row, and on nothing else. -/
theorem pay64_apply (A H : Vec Ideal S1000x64 .f32) (D : Vec Ideal S1000x1 .f32) (B : Vec Ideal S1x64 .f32)
    (p : Fin 1000) (q : Fin 64) :
    k3_pay1 (F := Ideal) A H D B (ix2 p q)
      = FloatOps.maximumf (FloatOps.addf (FloatOps.addf (A (ix2 p q)) (FloatOps.mulf (H (ix2 p q)) (D (ix2 p 0)))) (B (ix2 0 q)))
          (Scalar.ofBits (F := Ideal) .f32 0x00000000#32) := by
  unfold Gen.k3_pay1
  rw [shapeCast_self A, shapeCast_self H, shapeCast_self D, shapeCast_self B]
  show FloatOps.maximumf (F := Ideal) (FloatOps.addf (F := Ideal) (FloatOps.addf (F := Ideal) (A (ix2 p q)) (FloatOps.mulf (F := Ideal) (H (ix2 p q))
      (broadcastTo S1000x64 D broadcasts_S1000x1_S1000x64 (ix2 p q))))
      (broadcastTo S1000x64 B broadcasts_S1x64_S1000x64 (ix2 p q))) _ = _
  rw [colBroadcast64_apply, rowBroadcast64_apply]
  rfl

/-- The grid's 50 points in the printed index maps: at point t the three row-blocked inputs and the output are at
    block (t, 0) of their arrays, the bias row at its one block (0, 0). -/
theorem blockIndex64 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of block t is row 1000 t + p of the 50000-row array. -/
def row64 (t : Fin cfg3.N) (p : Fin 1000) : Fin 50000 :=
  ⟨t.val * 1000 + p.val, by have hN : cfg3.N = 50 := N_3; have := t.isLt; have := p.isLt; omega⟩

section Blocks
variable (V : (c : Dev nD) → (b : Ref sig .tc) → Buf (Elt Ideal) ((c : Thread nD τ).loc b)) (c : Dev nD)

/-- Element (p, q) of the aggregate's block t is element (1000 t + p, q) of the aggregate. -/
theorem aggBlock64_apply (t : Fin cfg3.N) (p : Fin 1000) (q : Fin 64) :
    (iblk3 V c 0 t : Vec Ideal S1000x64 .f32) (ix2 p q) = (V c main_v86 : S50000x64.Idx → Elt Ideal .f32) (ix2 (row64 t p) q) := by
  obtain ⟨e0, e1, -⟩ := blockIndex64 t
  have h : ((cfg3.win 0).blk t).view.emb (ix2 p q) = (ix2 (row64 t p) q : S50000x64.Idx) := by
    funext a; apply Fin.ext
    match a with
    | ⟨0, _⟩ => show win3_0.index t (0 : Fin 2) * 1000 + 1 * p.val = t.val * 1000 + p.val; omega
    | ⟨1, _⟩ => show win3_0.index t (1 : Fin 2) * 64 + 1 * q.val = q.val; omega
  show V c main_v86 (((cfg3.win 0).blk t).view.emb (ix2 p q)) = _
  rw [h]

/-- Element (p, q) of the linear transform's block t is element (1000 t + p, q) of the linear transform. -/
theorem selfBlock64_apply (t : Fin cfg3.N) (p : Fin 1000) (q : Fin 64) :
    (iblk3 V c 1 t : Vec Ideal S1000x64 .f32) (ix2 p q) = (V c main_v50 : S50000x64.Idx → Elt Ideal .f32) (ix2 (row64 t p) q) := by
  obtain ⟨-, -, e0, e1, -⟩ := blockIndex64 t
  have h : ((cfg3.win 1).blk t).view.emb (ix2 p q) = (ix2 (row64 t p) q : S50000x64.Idx) := by
    funext a; apply Fin.ext
    match a with
    | ⟨0, _⟩ => show win3_1.index t (0 : Fin 2) * 1000 + 1 * p.val = t.val * 1000 + p.val; omega
    | ⟨1, _⟩ => show win3_1.index t (1 : Fin 2) * 64 + 1 * q.val = q.val; omega
  show V c main_v50 (((cfg3.win 1).blk t).view.emb (ix2 p q)) = _
  rw [h]

/-- Row p of the reciprocal-degree column's block t is row 1000 t + p of the column. -/
theorem degBlock64_apply (t : Fin cfg3.N) (p : Fin 1000) :
    (iblk3 V c 2 t : Vec Ideal S1000x1 .f32) (ix2 p 0) = (V c main_v89 : S50000x1.Idx → Elt Ideal .f32) (ix2 (row64 t p) 0) := by
  obtain ⟨-, -, -, -, e0, e1, -⟩ := blockIndex64 t
  have h : ((cfg3.win 2).blk t).view.emb (ix2 p (0 : Fin 1)) = (ix2 (row64 t p) (0 : Fin 1) : S50000x1.Idx) := by
    funext a; apply Fin.ext
    match a with
    | ⟨0, _⟩ => show win3_2.index t (0 : Fin 2) * 1000 + 1 * p.val = t.val * 1000 + p.val; omega
    | ⟨1, _⟩ => show win3_2.index t (1 : Fin 2) * 1 + 1 * 0 = 0; omega
  show V c main_v89 (((cfg3.win 2).blk t).view.emb (ix2 p (0 : Fin 1))) = _
  rw [h]

/-- The bias row has one block, the row itself: lane q of it at any point is lane q of the row. -/
theorem biasBlock64_apply (t : Fin cfg3.N) (q : Fin 64) :
    (iblk3 V c 3 t : Vec Ideal S1x64 .f32) (ix2 0 q) = (V c main_v90 : S1x64.Idx → Elt Ideal .f32) (ix2 0 q) := by
  obtain ⟨-, -, -, -, -, -, e0, e1, -⟩ := blockIndex64 t
  have h : ((cfg3.win 3).blk t).view.emb (ix2 (0 : Fin 1) q) = (ix2 (0 : Fin 1) q : S1x64.Idx) := by
    funext a; apply Fin.ext
    match a with
    | ⟨0, _⟩ => show win3_3.index t (0 : Fin 2) * 1 + 1 * 0 = 0; omega
    | ⟨1, _⟩ => show win3_3.index t (1 : Fin 2) * 64 + 1 * q.val = q.val; omega
  show V c main_v90 (((cfg3.win 3).blk t).view.emb (ix2 (0 : Fin 1) q)) = _
  rw [h]

/-- Element (p, q) of the output's block t sits at (1000 t + p, q) of the output array. -/
theorem outBlock64_emb (t : Fin cfg3.N) (p : Fin 1000) (q : Fin 64) :
    ((cfg3.win 4).blk t).view.emb (ix2 p q) = (ix2 (row64 t p) q : S50000x64.Idx) := by
  obtain ⟨-, -, -, -, -, -, -, -, e0, e1⟩ := blockIndex64 t
  funext a; apply Fin.ext
  match a with
  | ⟨0, _⟩ => show win3_4.index t (0 : Fin 2) * 1000 + 1 * p.val = t.val * 1000 + p.val; omega
  | ⟨1, _⟩ => show win3_4.index t (1 : Fin 2) * 64 + 1 * q.val = q.val; omega

end Blocks

/-- The bias vector viewed as a one-row matrix reads, at (0, q), the vector's entry q. -/
theorem biasRow64_apply (x5 : (⟨S64, .f32⟩ : BufTy).Contents (Elt Ideal)) (q : Fin 64) :
    shapeCast S1x64 x5 shapeCasts_S64_S1x64 (ix2 0 q) = x5 (ix1 q) :=
  (shapeCast_addUnit_apply ![64] x5 shapeCasts_S64_S1x64 (ix2 0 q)).trans
    (congrArg x5 (funext fun a => Fin.ext (by match a with | ⟨0, _⟩ => rfl)))

section Flushed
variable (V : (c : Dev nD) → (b : Ref sig .tc) → Buf (Elt Ideal) ((c : Thread nD τ).loc b)) (c : Dev nD)
variable (A H G : (⟨S50000x64, .f32⟩ : BufTy).Contents (Elt Ideal)) (D : (⟨S50000x1, .f32⟩ : BufTy).Contents (Elt Ideal))
    (B : (⟨S1x64, .f32⟩ : BufTy).Contents (Elt Ideal))

/-- WHAT POINT t WRITES BACK is block t — rows 1000 t … 1000 t + 999 — of any array G that is, element by element,
    max((A[r,q] + H[r,q] * D[r,0]) + B[0,q], 0) of the four arrays the region finds in its input windows: element (p, q) of the
    stored block is the body's value at the blocks' elements, which are the arrays' at row 1000 t + p. -/
theorem flushed64_of
    (hA : V c main_v86 = A) (hH : V c main_v50 = H) (hD : V c main_v89 = D) (hB : V c main_v90 = B)
    (hG : ∀ (r : Fin 50000) (q : Fin 64), G (ix2 r q)
      = FloatOps.maximumf (FloatOps.addf (FloatOps.addf (A (ix2 r q)) (FloatOps.mulf (H (ix2 r q)) (D (ix2 r 0)))) (B (ix2 0 q)))
          (Scalar.ofBits (F := Ideal) .f32 0x00000000#32))
    (t : Fin cfg3.N) :
    (dat3 V c).flushed 4 t = ((cfg3.win 4).blk t).view.read (Elt Ideal) G := by
  show (cfg3.win 4).cut (grid3.coords t) ((dat3 V c).after 4 t) = _
  rw [after3_4]
  unfold out3_4
  rw [View.canon_unit_zero hz64]
  simp only [View.ld_unit_zero (S := S1000x64) hz64, View.ld_unit_zero (S := S1000x1) hz64, View.ld_unit_zero (S := S1x64) hz64]
  funext j
  obtain ⟨p, q, rfl⟩ : ∃ (p : Fin 1000) (q : Fin 64), j = ix2 p q := ⟨j 0, j 1, eq_ix2 j⟩
  show k3_pay1 (F := Ideal) (iblk3 V c 0 t) (iblk3 V c 1 t) (iblk3 V c 2 t) (iblk3 V c 3 t) (ix2 p q)
    = G (((cfg3.win 4).blk t).view.emb (ix2 p q))
  rw [outBlock64_emb t p q, hG]
  refine (pay64_apply (iblk3 V c 0 t) (iblk3 V c 1 t) (iblk3 V c 2 t) (iblk3 V c 3 t) p q).trans ?_
  rw [aggBlock64_apply V c t p q, selfBlock64_apply V c t p q, degBlock64_apply V c t p, biasBlock64_apply V c t q,
    hA, hH, hD, hB]

end Flushed

/-- An index of the output array is in point t's block iff each coordinate is in the block's range on its axis. -/
theorem mem_outBlock64 (t : Fin cfg3.N) (i : S50000x64.Idx) :
    i ∈ ((cfg3.win 4).blk t).view.set ↔ ∀ a : Fin 2, win3_4.index t a * S1000x64.size a ≤ (i a).val
      ∧ (i a).val < win3_4.index t a * S1000x64.size a + S1000x64.size a := by
  show i ∈ ((View.whole main_v91).slice (win3_4.rect t)).set ↔ _
  rw [View.set_slice_whole, Rect.mem_set_unit]
  exact Iff.rfl

/-- THE BLOCKS COVER THE ARRAY: row r lies in the block of point r / 1000, and every point writes its block back. -/
theorem cover64 (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 50 := N_3
  obtain ⟨t, ht⟩ : ∃ t : Fin cfg3.N, t.val = (i 0).val / 1000 := ⟨⟨(i 0).val / 1000, by omega⟩, rfl⟩
  obtain ⟨-, -, -, -, -, -, -, -, e0, e1⟩ := blockIndex64 t
  refine ⟨t, flush3_4 t, ?_⟩
  rw [mem_outBlock64]
  intro a
  match a with
  | ⟨0, _⟩ =>
    show win3_4.index t (0 : Fin 2) * 1000 ≤ (i 0).val ∧ (i 0).val < win3_4.index t (0 : Fin 2) * 1000 + 1000
    omega
  | ⟨1, _⟩ =>
    show win3_4.index t (1 : Fin 2) * 64 ≤ (i 1).val ∧ (i 1).val < win3_4.index t (1 : Fin 2) * 64 + 64
    omega

section Array
variable (V : (c : Dev nD) → (b : Ref sig .tc) → Buf (Elt Ideal) ((c : Thread nD τ).loc b)) (c : Dev nD)
variable (A H G : (⟨S50000x64, .f32⟩ : BufTy).Contents (Elt Ideal)) (D : (⟨S50000x1, .f32⟩ : BufTy).Contents (Elt Ideal))
    (B : (⟨S1x64, .f32⟩ : BufTy).Contents (Elt Ideal))

/-- THE ARRAY THE REGION LEAVES: every point writes back its block of G and the 50 blocks cover the 50000 rows, so the
    output array ends holding G. -/
theorem arrAt64_of
    (hA : V c main_v86 = A) (hH : V c main_v50 = H) (hD : V c main_v89 = D) (hB : V c main_v90 = B)
    (hG : ∀ (r : Fin 50000) (q : Fin 64), G (ix2 r q)
      = FloatOps.maximumf (FloatOps.addf (FloatOps.addf (A (ix2 r q)) (FloatOps.mulf (H (ix2 r q)) (D (ix2 r 0)))) (B (ix2 0 q)))
          (Scalar.ofBits (F := Ideal) .f32 0x00000000#32)) :
    (dat3 V c).arrAt 4 cfg3.N = G :=
  (dat3 V c).arrAt_eq_of_cover 4 G (fun t _ => flushed64_of V c A H G D B hA hH hD hB hG t) cover64

end Array

section Reference
variable (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))

/-- THE REFERENCE'S LAYER AT AN ELEMENT: relu of (aggregate + linear transform * (1/deg spread over the lanes)) + (bias spread
    over the rows), read at (r, q), is max((agg[r,q] + h[r,q] * invdeg[r,0]) + b[q], 0) — the same element of the aggregate
    and of the linear transform, row r of the reciprocal-degree column, entry q of the bias. -/
theorem reference64_apply (r : Fin 50000) (q : Fin 64) :
    Cert.ReferenceIdeal.Read.val_main_v101 x0 x1 x2 x3 x4 x5 (ix2 r q)
      = FloatOps.maximumf (FloatOps.addf (FloatOps.addf (Cert.ReferenceIdeal.Read.val_main_v91 x0 x1 x2 x3 x4 (ix2 r q))
            (FloatOps.mulf (Cert.ReferenceIdeal.Read.val_main_v55 x0 x1 x2 x3 x4 (ix2 r q)) (Cert.ReferenceIdeal.Read.val_main_v94 x1 (ix2 r 0))))
          (shapeCast S1x64 x5 shapeCasts_S64_S1x64 (ix2 0 q)))
          (Scalar.ofBits (F := Ideal) .f32 0x00000000#32) := by
  have e95 : Cert.ReferenceIdeal.Read.idx_main_v95 (ix2 r q) = ix2 r 0 :=
    funext fun a => Fin.ext (by match a with | ⟨0, _⟩ => rfl | ⟨1, _⟩ => rfl)
  have e98 : Cert.ReferenceIdeal.Read.idx_main_v98 (Cert.ReferenceIdeal.Read.idx_main_v99 (ix2 r q)) = ix1 q :=
    funext fun a => Fin.ext (by match a with | ⟨0, _⟩ => rfl)
  rw [Cert.ReferenceIdeal.Read.val_main_v101_apply, Cert.ReferenceIdeal.Read.val_main_v100_apply,
    Cert.ReferenceIdeal.Read.val_main_v97_apply, Cert.ReferenceIdeal.Read.val_main_v96_apply,
    Cert.ReferenceIdeal.Read.val_main_v95_apply, Cert.ReferenceIdeal.Read.val_main_v99_apply,
    Cert.ReferenceIdeal.Read.val_main_v98_apply, Cert.ReferenceIdeal.Read.val_main_call1_v0_apply,
    Cert.ReferenceIdeal.Read.val_main_call1_cst_apply, e95, e98, biasRow64_apply]

end Reference

/-- LAYER 2's POINTWISE REGION IS THE REFERENCE'S LAYER 2: if the region finds the reference's aggregate, linear transform,
    reciprocal-degree column and bias row in its four input windows, the array it leaves is the reference's relu stage. -/
theorem selfLoopRelu64_array
    (V : (c : Dev nD) → (b : Ref sig .tc) → Buf (Elt Ideal) ((c : Thread nD τ).loc b)) (c : Dev nD)
    (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (hA : V c main_v86 = Cert.ReferenceIdeal.Read.val_main_v91 x0 x1 x2 x3 x4)
    (hH : V c main_v50 = Cert.ReferenceIdeal.Read.val_main_v55 x0 x1 x2 x3 x4)
    (hD : V c main_v89 = Cert.ReferenceIdeal.Read.val_main_v94 x1)
    (hB : V c main_v90 = shapeCast S1x64 x5 shapeCasts_S64_S1x64) :
    (dat3 V c).arrAt 4 cfg3.N = Cert.ReferenceIdeal.Read.val_main_v101 x0 x1 x2 x3 x4 x5 :=
  arrAt64_of V c (Cert.ReferenceIdeal.Read.val_main_v91 x0 x1 x2 x3 x4) (Cert.ReferenceIdeal.Read.val_main_v55 x0 x1 x2 x3 x4)
    (Cert.ReferenceIdeal.Read.val_main_v101 x0 x1 x2 x3 x4 x5) (Cert.ReferenceIdeal.Read.val_main_v94 x1)
    (shapeCast S1x64 x5 shapeCasts_S64_S1x64) hA hH hD hB (reference64_apply x0 x1 x2 x3 x4 x5)

end Cert.KernelIdeal.Gcn

end
-- ==== Proof.Stages.lean ====
/-
  The buffers' contents from the launch to the return, boundary by boundary.

  The program alternates stretches of host operations with kernel regions. A stretch is a composition of pure
  array operations, so a buffer it writes holds that composition of the contents the stretch started from; a
  region overwrites its output array block by block and leaves every other buffer alone. Followed from the launch
  memory, the buffers each region reads therefore hold, in terms of the six argument arrays:

    before region 1:  the node features and the first weights;
    before region 2:  the edge aggregate of the first linear transform (degrees by scatter-add of ones over the
                      destination row, plus one; the power -1/2 of them gathered at both ends of every edge and
                      multiplied; the transform's rows gathered at the sources, scaled and scatter-added at the
                      destinations), the transform itself, the column of reciprocal degrees, the first bias as a row;
    before region 3:  the first layer's output and the second weights;
    before region 4:  the same four arrays of the second layer.

  The reference computes exactly these compositions, one operation per stage, so each is the reference's stage of the
  same name by unfolding; what a region leaves is then the next stage by that region's array lemma. The last one is the
  reference's result.
-/
import proofs.«139366_j7017976562000_1_alg».proof.Proof.Gen.KernelIdeal.Frame
import proofs.«139366_j7017976562000_1_alg».proof.Proof.Gen.ReferenceIdeal.Read
import proofs.«139366_j7017976562000_1_alg».proof.Proof.Linear128
import proofs.«139366_j7017976562000_1_alg».proof.Proof.Linear64
import proofs.«139366_j7017976562000_1_alg».proof.Proof.SelfLoopRelu128
import proofs.«139366_j7017976562000_1_alg».proof.Proof.SelfLoopRelu64
import Idealize.ShloMosaic.Lib.Pipeline.Value
import Idealize.ShloMosaic.Lib.ValueIdx
import Idealize.ShloMosaic.Lib.StableHlo.Run

set_option maxRecDepth 16384

noncomputable section

namespace Cert.KernelIdeal.Gcn

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)

/-- The six argument arrays as launched: node features, edge list, and the two layers' weights and biases. -/
abbrev feat : (⟨S50000x128, .f32⟩ : BufTy).Contents (Elt Ideal) := m ((c : Thread nD τ).loc main_arg0)
abbrev edges : (⟨S2x800000, .i32⟩ : BufTy).Contents (Elt Ideal) := m ((c : Thread nD τ).loc main_arg1)
abbrev weights1 : (⟨S128x128, .f32⟩ : BufTy).Contents (Elt Ideal) := m ((c : Thread nD τ).loc main_arg2)
abbrev bias1 : (⟨S128, .f32⟩ : BufTy).Contents (Elt Ideal) := m ((c : Thread nD τ).loc main_arg3)
abbrev weights2 : (⟨S128x64, .f32⟩ : BufTy).Contents (Elt Ideal) := m ((c : Thread nD τ).loc main_arg4)
abbrev bias2 : (⟨S64, .f32⟩ : BufTy).Contents (Elt Ideal) := m ((c : Thread nD τ).loc main_arg5)

/-! ## Before the first region: the edge list split into its source and destination rows -/

theorem entry0_feat : V1 m ρ c main_arg0 = feat m c := by
  show StableHlo.after hostOps0 (W0 m ρ c) (Proc.devRef .tc main_arg0) = _
  after_results_simp <;> rfl
theorem entry0_weights : V1 m ρ c main_arg2 = weights1 m c := by
  show StableHlo.after hostOps0 (W0 m ρ c) (Proc.devRef .tc main_arg2) = _
  after_results_simp <;> rfl
theorem at1_src : W1 m ρ c (Proc.devRef .tc main_v1) = Cert.ReferenceIdeal.Read.val_main_v1 (edges m c) := by
  show StableHlo.after hostOps0 (W0 m ρ c) (Proc.devRef .tc main_v1) = _
  after_results_simp <;> rfl
theorem at1_dst : W1 m ρ c (Proc.devRef .tc main_v3) = Cert.ReferenceIdeal.Read.val_main_v3 (edges m c) := by
  show StableHlo.after hostOps0 (W0 m ρ c) (Proc.devRef .tc main_v3) = _
  after_results_simp <;> rfl
theorem at1_bias : W1 m ρ c (Proc.devRef .tc main_arg3) = bias1 m c := by
  show StableHlo.after hostOps0 (W0 m ρ c) (Proc.devRef .tc main_arg3) = _
  after_results_simp <;> rfl

/-! ## After the first region: the linear transform of the features -/

theorem at2_linear : W2 m ρ c (Proc.devRef .tc main_v4) = Cert.ReferenceIdeal.Read.val_main_v4 (feat m c) (weights1 m c) :=
  (W2_arr m ρ c 2).trans (linear128_array (V1 m ρ) c (feat m c) (weights1 m c) (entry0_feat m ρ c) (entry0_weights m ρ c))
theorem at2_src : W2 m ρ c (Proc.devRef .tc main_v1) = Cert.ReferenceIdeal.Read.val_main_v1 (edges m c) :=
  (W2_of_ne m ρ c main_v1 (by decide)).trans (at1_src m ρ c)
theorem at2_dst : W2 m ρ c (Proc.devRef .tc main_v3) = Cert.ReferenceIdeal.Read.val_main_v3 (edges m c) :=
  (W2_of_ne m ρ c main_v3 (by decide)).trans (at1_dst m ρ c)
theorem at2_bias : W2 m ρ c (Proc.devRef .tc main_arg3) = bias1 m c :=
  (W2_of_ne m ρ c main_arg3 (by decide)).trans (at1_bias m ρ c)

/-! ## Before the second region: degrees, normalisation, the edge aggregate, the 1/deg column and the bias row -/

theorem entry1_agg : V3 m ρ c main_v40 = Cert.ReferenceIdeal.Read.val_main_v40 (feat m c) (edges m c) (weights1 m c) := by
  show StableHlo.after hostOps1 (W2 m ρ c) (Proc.devRef .tc main_v40) = _
  after_results_simp
  rw [at2_linear m ρ c, at2_src m ρ c, at2_dst m ρ c]
  rfl
theorem entry1_linear : V3 m ρ c main_v4 = Cert.ReferenceIdeal.Read.val_main_v4 (feat m c) (weights1 m c) := by
  show StableHlo.after hostOps1 (W2 m ρ c) (Proc.devRef .tc main_v4) = _
  after_results_simp
  exact at2_linear m ρ c
theorem entry1_invdeg : V3 m ρ c main_v43 = Cert.ReferenceIdeal.Read.val_main_v43 (edges m c) := by
  show StableHlo.after hostOps1 (W2 m ρ c) (Proc.devRef .tc main_v43) = _
  after_results_simp
  rw [at2_dst m ρ c]
  rfl
theorem entry1_bias : V3 m ρ c main_v44 = shapeCast S1x128 (bias1 m c) shapeCasts_S128_S1x128 := by
  show StableHlo.after hostOps1 (W2 m ρ c) (Proc.devRef .tc main_v44) = _
  after_results_simp
  rw [at2_bias m ρ c]
  rfl

/-! ## After the second region: the first layer's output -/

theorem at4_layer1 : W4 m ρ c (Proc.devRef .tc main_v45) = Cert.ReferenceIdeal.Read.val_main_v50 (feat m c) (edges m c) (weights1 m c) (bias1 m c) :=
  (W4_arr m ρ c 4).trans (selfLoopRelu128_array (V3 m ρ) c (feat m c) (edges m c) (weights1 m c) (bias1 m c)
    (entry1_agg m ρ c) (entry1_linear m ρ c) (entry1_invdeg m ρ c) (entry1_bias m ρ c))

/-- A buffer no region-1 array and no later write touches keeps its launch contents up to the third region's entry. -/
theorem at4_edges : W4 m ρ c (Proc.devRef .tc main_arg1) = edges m c := by
  refine (W4_of_ne m ρ c main_arg1 (by decide)).trans ?_
  show StableHlo.after hostOps1 (W2 m ρ c) (Proc.devRef .tc main_arg1) = _
  after_results_simp
  refine (W2_of_ne m ρ c main_arg1 (by decide)).trans ?_
  show StableHlo.after hostOps0 (W0 m ρ c) (Proc.devRef .tc main_arg1) = _
  after_results_simp <;> rfl
theorem at4_weights2 : W4 m ρ c (Proc.devRef .tc main_arg4) = weights2 m c := by
  refine (W4_of_ne m ρ c main_arg4 (by decide)).trans ?_
  show StableHlo.after hostOps1 (W2 m ρ c) (Proc.devRef .tc main_arg4) = _
  after_results_simp
  refine (W2_of_ne m ρ c main_arg4 (by decide)).trans ?_
  show StableHlo.after hostOps0 (W0 m ρ c) (Proc.devRef .tc main_arg4) = _
  after_results_simp <;> rfl
theorem at4_bias2 : W4 m ρ c (Proc.devRef .tc main_arg5) = bias2 m c := by
  refine (W4_of_ne m ρ c main_arg5 (by decide)).trans ?_
  show StableHlo.after hostOps1 (W2 m ρ c) (Proc.devRef .tc main_arg5) = _
  after_results_simp
  refine (W2_of_ne m ρ c main_arg5 (by decide)).trans ?_
  show StableHlo.after hostOps0 (W0 m ρ c) (Proc.devRef .tc main_arg5) = _
  after_results_simp <;> rfl

/-! ## Before the third region: the edge list split again -/

theorem entry2_layer1 : V5 m ρ c main_v45 = Cert.ReferenceIdeal.Read.val_main_v50 (feat m c) (edges m c) (weights1 m c) (bias1 m c) := by
  show StableHlo.after hostOps2 (W4 m ρ c) (Proc.devRef .tc main_v45) = _
  after_results_simp
  exact at4_layer1 m ρ c
theorem entry2_weights : V5 m ρ c main_arg4 = weights2 m c := by
  show StableHlo.after hostOps2 (W4 m ρ c) (Proc.devRef .tc main_arg4) = _
  after_results_simp
  exact at4_weights2 m ρ c
theorem at5_src : W5 m ρ c (Proc.devRef .tc main_v47) = Cert.ReferenceIdeal.Read.val_main_v52 (edges m c) := by
  show StableHlo.after hostOps2 (W4 m ρ c) (Proc.devRef .tc main_v47) = _
  after_results_simp
  rw [at4_edges m ρ c]
  rfl
theorem at5_dst : W5 m ρ c (Proc.devRef .tc main_v49) = Cert.ReferenceIdeal.Read.val_main_v54 (edges m c) := by
  show StableHlo.after hostOps2 (W4 m ρ c) (Proc.devRef .tc main_v49) = _
  after_results_simp
  rw [at4_edges m ρ c]
  rfl
theorem at5_bias2 : W5 m ρ c (Proc.devRef .tc main_arg5) = bias2 m c := by
  show StableHlo.after hostOps2 (W4 m ρ c) (Proc.devRef .tc main_arg5) = _
  after_results_simp
  exact at4_bias2 m ρ c

/-! ## After the third region: the second layer's linear transform -/

theorem at6_linear : W6 m ρ c (Proc.devRef .tc main_v50)
    = Cert.ReferenceIdeal.Read.val_main_v55 (feat m c) (edges m c) (weights1 m c) (bias1 m c) (weights2 m c) :=
  (W6_arr m ρ c 2).trans (linear64_array (V5 m ρ) c (feat m c) (edges m c) (weights1 m c) (bias1 m c) (weights2 m c)
    (entry2_layer1 m ρ c) (entry2_weights m ρ c))
theorem at6_src : W6 m ρ c (Proc.devRef .tc main_v47) = Cert.ReferenceIdeal.Read.val_main_v52 (edges m c) :=
  (W6_of_ne m ρ c main_v47 (by decide)).trans (at5_src m ρ c)
theorem at6_dst : W6 m ρ c (Proc.devRef .tc main_v49) = Cert.ReferenceIdeal.Read.val_main_v54 (edges m c) :=
  (W6_of_ne m ρ c main_v49 (by decide)).trans (at5_dst m ρ c)
theorem at6_bias2 : W6 m ρ c (Proc.devRef .tc main_arg5) = bias2 m c :=
  (W6_of_ne m ρ c main_arg5 (by decide)).trans (at5_bias2 m ρ c)

/-! ## Before the fourth region: the second layer's aggregate, 1/deg column and bias row -/

theorem entry3_agg : V7 m ρ c main_v86
    = Cert.ReferenceIdeal.Read.val_main_v91 (feat m c) (edges m c) (weights1 m c) (bias1 m c) (weights2 m c) := by
  show StableHlo.after hostOps3 (W6 m ρ c) (Proc.devRef .tc main_v86) = _
  after_results_simp
  rw [at6_linear m ρ c, at6_src m ρ c, at6_dst m ρ c]
  rfl
theorem entry3_linear : V7 m ρ c main_v50
    = Cert.ReferenceIdeal.Read.val_main_v55 (feat m c) (edges m c) (weights1 m c) (bias1 m c) (weights2 m c) := by
  show StableHlo.after hostOps3 (W6 m ρ c) (Proc.devRef .tc main_v50) = _
  after_results_simp
  exact at6_linear m ρ c
theorem entry3_invdeg : V7 m ρ c main_v89 = Cert.ReferenceIdeal.Read.val_main_v94 (edges m c) := by
  show StableHlo.after hostOps3 (W6 m ρ c) (Proc.devRef .tc main_v89) = _
  after_results_simp
  rw [at6_dst m ρ c]
  rfl
theorem entry3_bias : V7 m ρ c main_v90 = shapeCast S1x64 (bias2 m c) shapeCasts_S64_S1x64 := by
  show StableHlo.after hostOps3 (W6 m ρ c) (Proc.devRef .tc main_v90) = _
  after_results_simp
  rw [at6_bias2 m ρ c]
  rfl

/-! ## After the fourth region: the result -/

/-- The contents the last region leaves in the result buffer are the reference's last stage of the launch contents. -/
theorem result_value : W8 m ρ c (Proc.devRef .tc main_v91)
    = Cert.ReferenceIdeal.Read.val_main_v101 (feat m c) (edges m c) (weights1 m c) (bias1 m c) (weights2 m c) (bias2 m c) :=
  (W8_arr m ρ c 4).trans (selfLoopRelu64_array (V7 m ρ) c (feat m c) (edges m c) (weights1 m c) (bias1 m c) (weights2 m c) (bias2 m c)
    (entry3_agg m ρ c) (entry3_linear m ρ c) (entry3_invdeg m ρ c) (entry3_bias m ρ c))

end Cert.KernelIdeal.Gcn

end
-- ==== Proof.lean ====
/-
  The certificate of a two-layer graph convolution: a kernel of four regions against its array-level reference.

  Each layer is a linear transform X W, a degree-normalised aggregation over the edges (for every edge, the source's
  transformed row scaled by the inverse square roots of both ends' degrees, summed at the destination), the node's own
  transformed row divided by its degree, a bias and a rectifier. The kernel computes the linear transform and the last
  pointwise step in regions over blocks of 1000 rows and leaves the gather and scatter-add to host operations; the
  reference does everything with host operations. On the extended reals the kernel's blocks assemble to the
  reference's whole-array stages (a product of a row block is those rows of the whole product; a pointwise step on a
  block is that step on those rows), and the host operations between are the reference's own, so the two results are
  the same function of the arguments. No law that needs finiteness is used: the precondition is not opened.
-/
import proofs.«139366_j7017976562000_1_alg».proof.Defs
import proofs.«139366_j7017976562000_1_alg».proof.Proof.Gen.Kernel
import proofs.«139366_j7017976562000_1_alg».proof.Proof.Gen.Kernel.Frame
import proofs.«139366_j7017976562000_1_alg».proof.Proof.Gen.KernelIdeal
import proofs.«139366_j7017976562000_1_alg».proof.Proof.Gen.KernelIdeal.Frame
import proofs.«139366_j7017976562000_1_alg».proof.Proof.Gen.ReferenceIdeal
import proofs.«139366_j7017976562000_1_alg».proof.Proof.Gen.ReferenceIdeal.Run
import proofs.«139366_j7017976562000_1_alg».proof.Proof.Gen.ReferenceIdeal.Read
import proofs.«139366_j7017976562000_1_alg».proof.Proof.Gen.Pre_finite_inputs
import proofs.«139366_j7017976562000_1_alg».proof.Proof.ResultRun
import proofs.«139366_j7017976562000_1_alg».proof.Proof.Stages

noncomputable section

/-! ## The claims -/

namespace Cert.Proof

open Idealize.ShloMosaic Idealize.SL.Sem

/-- The word-level kernel runs and leaves its arguments as launched. -/
theorem frame_kernel : Cert.frame_Kernel := fun m ρ _ => Cert.Kernel.Gen.frame m ρ
/-- So does the idealized kernel. -/
theorem frame_kernelIdeal : Cert.frame_KernelIdeal := fun m ρ _ => Cert.KernelIdeal.Gen.frame m ρ
/-- The idealized reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- On the extended reals the kernel's result array and the reference's are the same function of the arguments:
    two rounds of (linear transform, degree-normalised aggregation over the edges plus the node's own term, bias,
    rectifier), the kernel's computed region by region and the reference's operation by operation. -/
theorem algebraic : Cert.algebraic_KernelIdeal_ReferenceIdeal := by
  intro m ρ m' ρ' _ hagree
  refine ⟨fun c => Cert.ReferenceIdeal.Read.val_main_v101 (Cert.KernelIdeal.Gcn.feat m c) (Cert.KernelIdeal.Gcn.edges m c)
    (Cert.KernelIdeal.Gcn.weights1 m c) (Cert.KernelIdeal.Gcn.bias1 m c) (Cert.KernelIdeal.Gcn.weights2 m c)
    (Cert.KernelIdeal.Gcn.bias2 m c), ?_, ?_⟩
  · exact (θ_run Cert.KernelIdeal.defs _ _).mono
      (fun r h c => ⟨(h c).1.trans (Cert.KernelIdeal.Gcn.result_value m ρ c), (h c).2⟩)
      (Cert.KernelIdeal.Gcn.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v101_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
